-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x512 .f32) (main_arg6 : FVec F S1 .f32) (main_arg7 : FVec F S1x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x512 .f32 := Host.absf main_arg7
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S10000x512 .f32) (main_arg1 : IVec S2x160000 32) (main_arg2 : FVec F S160000 .f32) (main_arg3 : FVec F S512x512 .f32) (main_arg4 : FVec F S512 .f32) (main_arg5 : FVec F S1x512 .f32) (main_arg6 : FVec F S1 .f32) (main_arg7 : FVec F S1x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S2000x512 : Shape := ⟨2, ![2000, 512]⟩
abbrev S170000x512 : Shape := ⟨2, ![170000, 512]⟩
abbrev S512x1 : Shape := ⟨2, ![512, 1]⟩
abbrev S10000x1 : Shape := ⟨2, ![10000, 1]⟩
abbrev S2000x1 : Shape := ⟨2, ![2000, 1]⟩
abbrev S1x1 : Shape := ⟨2, ![1, 1]⟩

abbrev nBuf : Space → Nat
  | .hbm => 124
  | .vmem => 13
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S1x512, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S170000, .i32⟩
  | .hbm, ⟨32, _⟩ => ⟨S170000, .i1⟩
  | .hbm, ⟨33, _⟩ => ⟨S_, .i32⟩
  | .hbm, ⟨34, _⟩ => ⟨S170000, .i32⟩
  | .hbm, ⟨35, _⟩ => ⟨S170000, .i32⟩
  | .hbm, ⟨36, _⟩ => ⟨S170000, .i32⟩
  | .hbm, ⟨37, _⟩ => ⟨S170000x1, .i32⟩
  | .hbm, ⟨38, _⟩ => ⟨S170000, .f32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000, .f32⟩
  | .hbm, ⟨49, _⟩ => ⟨S170000, .f32⟩
  | .hbm, ⟨50, _⟩ => ⟨S10000x512, .bf16⟩
  | .hbm, ⟨51, _⟩ => ⟨S512x512, .f32⟩
  | .hbm, ⟨52, _⟩ => ⟨S512x512, .bf16⟩
  | .hbm, ⟨53, _⟩ => ⟨S10000x512, .f32⟩
  | .hbm, ⟨54, _⟩ => ⟨S170000x1, .f32⟩
  | .hbm, ⟨55, _⟩ => ⟨S_, .i32⟩
  | .hbm, ⟨56, _⟩ => ⟨S170000, .i32⟩
  | .hbm, ⟨57, _⟩ => ⟨S170000, .i1⟩
  | .hbm, ⟨58, _⟩ => ⟨S_, .i32⟩
  | .hbm, ⟨59, _⟩ => ⟨S170000, .i32⟩
  | .hbm, ⟨60, _⟩ => ⟨S170000, .i32⟩
  | .hbm, ⟨61, _⟩ => ⟨S170000, .i32⟩
  | .hbm, ⟨62, _⟩ => ⟨S170000x1, .i32⟩
  | .hbm, ⟨63, _⟩ => ⟨S170000x512, .f32⟩
  | .hbm, ⟨64, _⟩ => ⟨S170000x512, .f32⟩
  | .hbm, ⟨65, _⟩ => ⟨S170000x512, .f32⟩
  | .hbm, ⟨66, _⟩ => ⟨S_, .f32⟩
  | .hbm, ⟨67, _⟩ => ⟨S10000x512, .f32⟩
  | .hbm, ⟨68, _⟩ => ⟨S170000x1, .i32⟩
  | .hbm, ⟨69, _⟩ => ⟨S10000x512, .f32⟩
  | .hbm, ⟨70, _⟩ => ⟨S1x512, .f32⟩
  | .hbm, ⟨71, _⟩ => ⟨S10000x512, .f32⟩
  | .hbm, ⟨72, _⟩ => ⟨S10000x512, .f32⟩
  | .hbm, ⟨73, _⟩ => ⟨S_, .f32⟩
  | .hbm, ⟨74, _⟩ => ⟨S10000x512, .f32⟩
  | .hbm, ⟨75, _⟩ => ⟨S10000x512, .f32⟩
  | .hbm, ⟨76, _⟩ => ⟨S_, .f32⟩
  | .hbm, ⟨77, _⟩ => ⟨S170000, .f32⟩
  | .hbm, ⟨78, _⟩ => ⟨S_, .f32⟩
  | .hbm, ⟨79, _⟩ => ⟨S10000, .f32⟩
  | .hbm, ⟨80, _⟩ => ⟨S170000x1, .i32⟩
  | .hbm, ⟨81, _⟩ => ⟨S10000, .f32⟩
  | .hbm, ⟨82, _⟩ => ⟨S_, .f32⟩
  | .hbm, ⟨83, _⟩ => ⟨S10000, .f32⟩
  | .hbm, ⟨84, _⟩ => ⟨S10000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S_, .i32⟩
  | .hbm, ⟨89, _⟩ => ⟨S170000, .i32⟩
  | .hbm, ⟨90, _⟩ => ⟨S170000, .i1⟩
  | .hbm, ⟨91, _⟩ => ⟨S_, .i32⟩
  | .hbm, ⟨92, _⟩ => ⟨S170000, .i32⟩
  | .hbm, ⟨93, _⟩ => ⟨S170000, .i32⟩
  | .hbm, ⟨94, _⟩ => ⟨S170000, .i32⟩
  | .hbm, ⟨95, _⟩ => ⟨S170000x1, .i32⟩
  | .hbm, ⟨96, _⟩ => ⟨S170000, .f32⟩
  | .hbm, ⟨97, _⟩ => ⟨S170000x1, .f32⟩
  | .hbm, ⟨98, _⟩ => ⟨S_, .i32⟩
  | .hbm, ⟨99, _⟩ => ⟨S170000, .i32⟩
  | .hbm, ⟨100, _⟩ => ⟨S170000, .i1⟩
  | .hbm, ⟨101, _⟩ => ⟨S_, .i32⟩
  | .hbm, ⟨102, _⟩ => ⟨S170000, .i32⟩
  | .hbm, ⟨103, _⟩ => ⟨S170000, .i32⟩
  | .hbm, ⟨104, _⟩ => ⟨S170000, .i32⟩
  | .hbm, ⟨105, _⟩ => ⟨S170000x1, .i32⟩
  | .hbm, ⟨106, _⟩ => ⟨S170000x512, .f32⟩
  | .hbm, ⟨107, _⟩ => ⟨S170000x512, .f32⟩
  | .hbm, ⟨108, _⟩ => ⟨S170000x512, .f32⟩
  | .hbm, ⟨109, _⟩ => ⟨S_, .f32⟩
  | .hbm, ⟨110, _⟩ => ⟨S10000x512, .f32⟩
  | .hbm, ⟨111, _⟩ => ⟨S170000x1, .i32⟩
  | .hbm, ⟨112, _⟩ => ⟨S10000x512, .f32⟩
  | .hbm, ⟨113, _⟩ => ⟨S10000x512, .bf16⟩
  | .hbm, ⟨114, _⟩ => ⟨S10000x512, .bf16⟩
  | .hbm, ⟨115, _⟩ => ⟨S512x1, .f32⟩
  | .hbm, ⟨116, _⟩ => ⟨S512x1, .bf16⟩
  | .hbm, ⟨117, _⟩ => ⟨S512x1, .f32⟩
  | .hbm, ⟨118, _⟩ => ⟨S512x1, .bf16⟩
  | .hbm, ⟨119, _⟩ => ⟨S10000x1, .f32⟩
  | .hbm, ⟨120, _⟩ => ⟨S1x1, .f32⟩
  | .hbm, ⟨121, _⟩ => ⟨S10000x1, .f32⟩
  | .hbm, ⟨122, _⟩ => ⟨S10000x1, .f32⟩
  | .hbm, ⟨123, _⟩ => ⟨S10000, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .bf16⟩
  | .local _ .vmem, ⟨6, _⟩ => ⟨S2000x512, .bf16⟩
  | .local _ .vmem, ⟨7, _⟩ => ⟨S2000x512, .bf16⟩
  | .local _ .vmem, ⟨8, _⟩ => ⟨S2000x512, .bf16⟩
  | .local _ .vmem, ⟨9, _⟩ => ⟨S512x1, .bf16⟩
  | .local _ .vmem, ⟨10, _⟩ => ⟨S512x1, .bf16⟩
  | .local _ .vmem, ⟨11, _⟩ => ⟨S2000x1, .f32⟩
  | .local _ .vmem, ⟨12, _⟩ => ⟨S2000x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bitsLt_bf16_f32 : FTy.bits .bf16 < FTy.bits .f32
  transposes_S512x512_S512x512_1_0 : S512x512.Transposes [1, 0] S512x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  transposes_S1x512_S512x1_1_0 : S1x512.Transposes [1, 0] S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S2000x512_S512x512_S2000x512_1_0_0_1_n_n_wf : DotDims.WF S2000x512 S512x512 S2000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .f32 = 32 ∨ (Rect.block (s := S10000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S10000x512.size a
  hwx1_1 : ∀ i : grid1.Coords, EltTy.bits .bf16 = 32 ∨ (Rect.block (s := S10000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .bf16 = 32 ∨ (Rect.block (s := S512x1) S512x1.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .bf16 = 32 ∨ (Rect.block (s := S512x1) S512x1.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S10000x1.size a
  hwx1_4 : ∀ i : grid1.Coords, EltTy.bits .f32 = 32 ∨ (Rect.block (s := S10000x1) S2000x1.size (cc1_transform_4 i) (hinb1_4 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_v32) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v81) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S2000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000 : Shape := ⟨1, ![160000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S512x1 : Shape := ⟨2, ![512, 1]⟩
abbrev S10000x1 : Shape := ⟨2, ![10000, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S1x512, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S170000, .i32⟩
  | .hbm, ⟨32, _⟩ => ⟨S170000, .i1⟩
  | .hbm, ⟨33, _⟩ => ⟨S_, .i32⟩
  | .hbm, ⟨34, _⟩ => ⟨S170000, .i32⟩
  | .hbm, ⟨35, _⟩ => ⟨S170000, .i32⟩
  | .hbm, ⟨36, _⟩ => ⟨S170000, .i32⟩
  | .hbm, ⟨37, _⟩ => ⟨S170000x1, .i32⟩
  | .hbm, ⟨38, _⟩ => ⟨S170000, .f32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000, .f32⟩
  | .hbm, ⟨49, _⟩ => ⟨S170000, .f32⟩
  | .hbm, ⟨50, _⟩ => ⟨S512x512, .f32⟩
  | .hbm, ⟨51, _⟩ => ⟨S10000x512, .f32⟩
  | .hbm, ⟨52, _⟩ => ⟨S170000x1, .f32⟩
  | .hbm, ⟨53, _⟩ => ⟨S_, .i32⟩
  | .hbm, ⟨54, _⟩ => ⟨S170000, .i32⟩
  | .hbm, ⟨55, _⟩ => ⟨S170000, .i1⟩
  | .hbm, ⟨56, _⟩ => ⟨S_, .i32⟩
  | .hbm, ⟨57, _⟩ => ⟨S170000, .i32⟩
  | .hbm, ⟨58, _⟩ => ⟨S170000, .i32⟩
  | .hbm, ⟨59, _⟩ => ⟨S170000, .i32⟩
  | .hbm, ⟨60, _⟩ => ⟨S170000x1, .i32⟩
  | .hbm, ⟨61, _⟩ => ⟨S170000x512, .f32⟩
  | .hbm, ⟨62, _⟩ => ⟨S170000x512, .f32⟩
  | .hbm, ⟨63, _⟩ => ⟨S170000x512, .f32⟩
  | .hbm, ⟨64, _⟩ => ⟨S_, .f32⟩
  | .hbm, ⟨65, _⟩ => ⟨S10000x512, .f32⟩
  | .hbm, ⟨66, _⟩ => ⟨S170000x1, .i32⟩
  | .hbm, ⟨67, _⟩ => ⟨S10000x512, .f32⟩
  | .hbm, ⟨68, _⟩ => ⟨S1x512, .f32⟩
  | .hbm, ⟨69, _⟩ => ⟨S10000x512, .f32⟩
  | .hbm, ⟨70, _⟩ => ⟨S10000x512, .f32⟩
  | .hbm, ⟨71, _⟩ => ⟨S_, .f32⟩
  | .hbm, ⟨72, _⟩ => ⟨S10000x512, .f32⟩
  | .hbm, ⟨73, _⟩ => ⟨S10000x512, .f32⟩
  | .hbm, ⟨74, _⟩ => ⟨S_, .f32⟩
  | .hbm, ⟨75, _⟩ => ⟨S170000, .f32⟩
  | .hbm, ⟨76, _⟩ => ⟨S_, .f32⟩
  | .hbm, ⟨77, _⟩ => ⟨S10000, .f32⟩
  | .hbm, ⟨78, _⟩ => ⟨S170000x1, .i32⟩
  | .hbm, ⟨79, _⟩ => ⟨S10000, .f32⟩
  | .hbm, ⟨80, _⟩ => ⟨S_, .f32⟩
  | .hbm, ⟨81, _⟩ => ⟨S10000, .f32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S_, .i32⟩
  | .hbm, ⟨87, _⟩ => ⟨S170000, .i32⟩
  | .hbm, ⟨88, _⟩ => ⟨S170000, .i1⟩
  | .hbm, ⟨89, _⟩ => ⟨S_, .i32⟩
  | .hbm, ⟨90, _⟩ => ⟨S170000, .i32⟩
  | .hbm, ⟨91, _⟩ => ⟨S170000, .i32⟩
  | .hbm, ⟨92, _⟩ => ⟨S170000, .i32⟩
  | .hbm, ⟨93, _⟩ => ⟨S170000x1, .i32⟩
  | .hbm, ⟨94, _⟩ => ⟨S170000, .f32⟩
  | .hbm, ⟨95, _⟩ => ⟨S170000x1, .f32⟩
  | .hbm, ⟨96, _⟩ => ⟨S_, .i32⟩
  | .hbm, ⟨97, _⟩ => ⟨S170000, .i32⟩
  | .hbm, ⟨98, _⟩ => ⟨S170000, .i1⟩
  | .hbm, ⟨99, _⟩ => ⟨S_, .i32⟩
  | .hbm, ⟨100, _⟩ => ⟨S170000, .i32⟩
  | .hbm, ⟨101, _⟩ => ⟨S170000, .i32⟩
  | .hbm, ⟨102, _⟩ => ⟨S170000, .i32⟩
  | .hbm, ⟨103, _⟩ => ⟨S170000x1, .i32⟩
  | .hbm, ⟨104, _⟩ => ⟨S170000x512, .f32⟩
  | .hbm, ⟨105, _⟩ => ⟨S170000x512, .f32⟩
  | .hbm, ⟨106, _⟩ => ⟨S170000x512, .f32⟩
  | .hbm, ⟨107, _⟩ => ⟨S_, .f32⟩
  | .hbm, ⟨108, _⟩ => ⟨S10000x512, .f32⟩
  | .hbm, ⟨109, _⟩ => ⟨S170000x1, .i32⟩
  | .hbm, ⟨110, _⟩ => ⟨S10000x512, .f32⟩
  | .hbm, ⟨111, _⟩ => ⟨S512x1, .f32⟩
  | .hbm, ⟨112, _⟩ => ⟨S10000x1, .f32⟩
  | .hbm, ⟨113, _⟩ => ⟨S1x1, .f32⟩
  | .hbm, ⟨114, _⟩ => ⟨S10000x1, .f32⟩
  | .hbm, ⟨115, _⟩ => ⟨S10000x1, .f32⟩
  | .hbm, ⟨116, _⟩ => ⟨S512x1, .f32⟩
  | .hbm, ⟨117, _⟩ => ⟨S10000x1, .f32⟩
  | .hbm, ⟨118, _⟩ => ⟨S10000x1, .f32⟩
  | .hbm, ⟨119, _⟩ => ⟨S10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  transposes_S512x512_S512x512_1_0 : S512x512.Transposes [1, 0] S512x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  transposes_S1x512_S512x1_1_0 : S1x512.Transposes [1, 0] S512x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x512_S512x512_S10000x512_1_0_0_1_n_n_wf : DotDims.WF S10000x512 S512x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x1_S10000x1_1_0_0_1_n_n_wf : DotDims.WF S10000x512 S512x1 S10000x1 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.KRun.lean ====
/-
  The idealized kernel program's run with its two results named.

  The program is nine segments in a row: three stretches of array operations, the first dense layer's
  pipeline over five row blocks, three more stretches, the output layer's pipeline over five row blocks,
  and a last stretch. The contents of every buffer after each segment are a fold from the launch memory
  (`Gen.W0` … `Gen.W9`): a stretch applies its operations in order, a pipeline replaces its output array by
  what its five write-backs leave and keeps everything else. Every weakly fair execution terminates
  without a fault, and at the end every buffer holds the fold's last contents `Gen.W9`; read at the two
  result buffers and at the eight arguments this is the statement below. The arguments come back to
  their launch contents because no segment writes them.
-/
import proofs.«135529_j46093589021048_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting, with the output vector and the
    hidden features at the last contents of the fold and the arguments as launched. -/
theorem results : θ_run defs (onTc (τ := τ) (main (F := F))) ⟨m, fun _ => 0, ρ⟩ (fun r => ∀ c : Dev nD,
      r.2.mem ((c.tc : Thread nD τ).loc main_v91) = W9 m ρ c (Proc.devRef .tc main_v91)
      ∧ r.2.mem ((c.tc : Thread nD τ).loc main_v52) = W9 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v91 (by decide)),
       h c _ (mem_uc main_v52 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Run

end
-- ==== Proof.Mid.lean ====
/-
  The part of the network between its two dense layers, and after the second, as functions of the
  layers' outputs.

  Both programs compute, from the first layer's output `h0` (a [10000, 512] array), the hidden features
      feat h0 = relu (Σ over edges e with col e = i of norm e · h0 (row e, ·) + b1)
  and from the hidden features `h` the aggregated features
      agg h = Σ over edges e with col e = i of (1 / max (cnt i) 1) · h (row e, ·),
  where the edge list (with the self loops appended), the normalisation `norm e` (the edge's weight times
  the inverse square roots of the weighted in-degrees of its two ends, zero where that degree is not
  positive) and the number `cnt i` of edges into node i are computed from the edge index and edge weight
  arguments alone. These functions are
  written here over the reference's own stages, so that the reference's results are these functions of its
  first matrix product by unfolding, and nothing inside them is ever opened: the two programs apply the
  same function to first-layer outputs that are shown equal.
-/
import proofs.«135529_j46093589021048_1_alg».proof.Proof.Gen.ReferenceIdeal.Read

noncomputable section

namespace Cert.Mid

open Cert.ReferenceIdeal Cert.ReferenceIdeal.Read Idealize.ShloMosaic

variable {F : FTy → Type} [FloatOps F]

/-- The hidden features from the first layer's output: the scatter-sum along the edges of the normalised
    gathered rows, plus the bias, rectified. -/
def feat (h0 : (⟨S10000x512, .f32⟩ : BufTy).Contents (Elt F)) (x1 : (⟨S2x160000, .i32⟩ : BufTy).Contents (Elt F))
    (x2 : (⟨S160000, .f32⟩ : BufTy).Contents (Elt F)) (x4 : (⟨S512, .f32⟩ : BufTy).Contents (Elt F)) :
    (⟨S10000x512, .f32⟩ : BufTy).Contents (Elt F) :=
  maximumf
    (addf
      (Host.scatterAdd scatter_S10000x512_S170000x1_S170000x512_1_0_0_1 (val_main_v44 (F := F)) (val_main_v45 (F := F) x1)
        (mulf (val_main_v42 (F := F) x1 x2)
          (Host.gather gather_S10000x512_S170000x1_S170000x512_1_0_n_n_0_1_1512 h0 (val_main_v40 (F := F) x1))))
      (val_main_v48 (F := F) x4))
    (val_main_call1_v0 (F := F))

/-- The aggregated features from the hidden ones: the scatter-sum along the edges of the gathered rows scaled by
    the inverse of the target node's number of incoming edges, clamped below at one. -/
def agg (h : (⟨S10000x512, .f32⟩ : BufTy).Contents (Elt F)) (x1 : (⟨S2x160000, .i32⟩ : BufTy).Contents (Elt F)) :
    (⟨S10000x512, .f32⟩ : BufTy).Contents (Elt F) :=
  Host.scatterAdd scatter_S10000x512_S170000x1_S170000x512_1_0_0_1 (val_main_v76 (F := F)) (val_main_v77 (F := F) x1)
    (mulf (val_main_v74 (F := F) x1)
      (Host.gather gather_S10000x512_S170000x1_S170000x512_1_0_n_n_0_1_1512 h (val_main_v72 (F := F) x1)))

/-- The reference's hidden features are `feat` of its first matrix product. -/
theorem ref_feat (x0 : (⟨S10000x512, .f32⟩ : BufTy).Contents (Elt F)) (x1 : (⟨S2x160000, .i32⟩ : BufTy).Contents (Elt F))
    (x2 : (⟨S160000, .f32⟩ : BufTy).Contents (Elt F)) (x3 : (⟨S512x512, .f32⟩ : BufTy).Contents (Elt F))
    (x4 : (⟨S512, .f32⟩ : BufTy).Contents (Elt F)) :
    val_main_v50 (F := F) x0 x1 x2 x3 x4 = feat (val_main_v33 (F := F) x0 x3) x1 x2 x4 := rfl

/-- The reference's aggregated features are `agg` of its hidden features. -/
theorem ref_agg (x0 : (⟨S10000x512, .f32⟩ : BufTy).Contents (Elt F)) (x1 : (⟨S2x160000, .i32⟩ : BufTy).Contents (Elt F))
    (x2 : (⟨S160000, .f32⟩ : BufTy).Contents (Elt F)) (x3 : (⟨S512x512, .f32⟩ : BufTy).Contents (Elt F))
    (x4 : (⟨S512, .f32⟩ : BufTy).Contents (Elt F)) :
    val_main_v78 (F := F) x0 x1 x2 x3 x4 = agg (val_main_v50 (F := F) x0 x1 x2 x3 x4) x1 := rfl

end Cert.Mid

end
-- ==== Proof.KHostA.lean ====
/-
  The idealized kernel program's buffers when its first pipeline is entered, read at the buffers the later
  segments use, as functions of the launch arguments.
-/
import proofs.«135529_j46093589021048_1_alg».proof.Proof.Gen.KernelIdeal.Frame
import proofs.«135529_j46093589021048_1_alg».proof.Proof.Mid
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-! ## Before the first dense layer

The contents of the buffers the later segments read, after the three stretches that precede the first
pipeline: the edge list's source and target rows with the self loops appended, the symmetric
normalisation of every edge, the two operands of the first layer (the node features and the transposed
weight, their change of float format the identity on the extended reals), and the arguments, which no
operation writes. Each is the reference's stage of the same name applied to the launch arguments: the two
programs print the same operations here. -/

/-- The source node of every edge, self loops appended. -/
theorem e_v3 : W3 m ρ c (Proc.devRef .tc main_v3) = val_main_v3 (F := F) (m ((c.tc : Thread nD τ).loc main_arg1)) := by
  dsimp only [W3, W2, W1, W0, hostOps0, hostOps0_1, hostOps0_2]
  after_results_simp
  rfl

/-- The target node of every edge, self loops appended. -/
theorem e_v6 : W3 m ρ c (Proc.devRef .tc main_v6) = val_main_v6 (F := F) (m ((c.tc : Thread nD τ).loc main_arg1)) := by
  dsimp only [W3, W2, W1, W0, hostOps0, hostOps0_1, hostOps0_2]
  after_results_simp
  rfl

/-- The normalisation coefficient of every edge. -/
theorem e_v31 : W3 m ρ c (Proc.devRef .tc main_v31) = val_main_v31 (F := F) (m ((c.tc : Thread nD τ).loc main_arg1)) (m ((c.tc : Thread nD τ).loc main_arg2)) := by
  dsimp only [W3, W2, W1, W0, hostOps0, hostOps0_1, hostOps0_2]
  after_results_simp
  rfl

/-- The first layer's left operand: the node features, converted. -/
theorem e_v32 : W3 m ρ c (Proc.devRef .tc main_v32) = truncf .bf16 (m ((c.tc : Thread nD τ).loc main_arg0)) bitsLt_bf16_f32 := by
  dsimp only [W3, W2, W1, W0, hostOps0, hostOps0_1, hostOps0_2]
  after_results_simp

/-- The first layer's right operand: the transposed weight, converted. -/
theorem e_v34 : W3 m ρ c (Proc.devRef .tc main_v34) = truncf .bf16 (val_main_v32 (F := F) (m ((c.tc : Thread nD τ).loc main_arg3))) bitsLt_bf16_f32 := by
  dsimp only [W3, W2, W1, W0, hostOps0, hostOps0_1, hostOps0_2]
  after_results_simp
  rfl

theorem e_arg4 : W3 m ρ c (Proc.devRef .tc main_arg4) = m ((c.tc : Thread nD τ).loc main_arg4) := by
  dsimp only [W3, W2, W1, W0, hostOps0, hostOps0_1, hostOps0_2]
  after_results_simp

theorem e_arg5 : W3 m ρ c (Proc.devRef .tc main_arg5) = m ((c.tc : Thread nD τ).loc main_arg5) := by
  dsimp only [W3, W2, W1, W0, hostOps0, hostOps0_1, hostOps0_2]
  after_results_simp

theorem e_arg6 : W3 m ρ c (Proc.devRef .tc main_arg6) = m ((c.tc : Thread nD τ).loc main_arg6) := by
  dsimp only [W3, W2, W1, W0, hostOps0, hostOps0_1, hostOps0_2]
  after_results_simp

theorem e_arg7 : W3 m ρ c (Proc.devRef .tc main_arg7) = m ((c.tc : Thread nD τ).loc main_arg7) := by
  dsimp only [W3, W2, W1, W0, hostOps0, hostOps0_1, hostOps0_2]
  after_results_simp

end Cert.KernelIdeal.Host

end
-- ==== Proof.KHostB.lean ====
/-
  The idealized kernel program's buffers when its second pipeline is entered, as functions of the first
  layer's output array and the launch arguments.
-/
import proofs.«135529_j46093589021048_1_alg».proof.Proof.Gen.KernelIdeal.Frame
import proofs.«135529_j46093589021048_1_alg».proof.Proof.Mid
import proofs.«135529_j46093589021048_1_alg».proof.Proof.KHostA
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-! ## Between the two dense layers

The first pipeline replaces its output array (the first layer's output, `main_v35`) and keeps every
other buffer. The three stretches that follow compute from that array the hidden features, the aggregated
features and the second layer's four operands; read at those buffers, the contents when the second
pipeline is entered are the functions `Mid.feat` and `Mid.agg` of the first layer's output, and the two
transposed weight rows, each converted (the identity on the extended reals). -/

/-- The hidden features (the program's second result). -/
theorem k_v52 : W7 m ρ c (Proc.devRef .tc main_v52) = (Cert.Mid.feat (F := F) (W4 m ρ c (Proc.devRef .tc main_v35)) (m ((c.tc : Thread nD τ).loc main_arg1)) (m ((c.tc : Thread nD τ).loc main_arg2)) (m ((c.tc : Thread nD τ).loc main_arg4))) := by
  dsimp only [W7, W6, W5, hostOps1, hostOps1_1, hostOps1_2]
  after_results_simp
  rw [W4_of_ne m ρ c main_v31 (by decide), W4_of_ne m ρ c main_v3 (by decide), W4_of_ne m ρ c main_v6 (by decide), W4_of_ne m ρ c main_arg4 (by decide)]
  rw [e_v31, e_v3, e_v6, e_arg4]
  rfl

/-- The second layer's second operand: the hidden features, converted. -/
theorem k_v82 : W7 m ρ c (Proc.devRef .tc main_v82) = truncf .bf16 (Cert.Mid.feat (F := F) (W4 m ρ c (Proc.devRef .tc main_v35)) (m ((c.tc : Thread nD τ).loc main_arg1)) (m ((c.tc : Thread nD τ).loc main_arg2)) (m ((c.tc : Thread nD τ).loc main_arg4))) bitsLt_bf16_f32 := by
  dsimp only [W7, W6, W5, hostOps1, hostOps1_1, hostOps1_2]
  after_results_simp
  rw [W4_of_ne m ρ c main_v31 (by decide), W4_of_ne m ρ c main_v3 (by decide), W4_of_ne m ρ c main_v6 (by decide), W4_of_ne m ρ c main_arg4 (by decide)]
  rw [e_v31, e_v3, e_v6, e_arg4]
  rfl

/-- The second layer's first operand: the aggregated features, converted. -/
theorem k_v81 : W7 m ρ c (Proc.devRef .tc main_v81) = truncf .bf16 (Cert.Mid.agg (F := F) (Cert.Mid.feat (F := F) (W4 m ρ c (Proc.devRef .tc main_v35)) (m ((c.tc : Thread nD τ).loc main_arg1)) (m ((c.tc : Thread nD τ).loc main_arg2)) (m ((c.tc : Thread nD τ).loc main_arg4))) (m ((c.tc : Thread nD τ).loc main_arg1))) bitsLt_bf16_f32 := by
  dsimp only [W7, W6, W5, hostOps1, hostOps1_1, hostOps1_2]
  after_results_simp
  rw [W4_of_ne m ρ c main_v31 (by decide), W4_of_ne m ρ c main_v3 (by decide), W4_of_ne m ρ c main_v6 (by decide), W4_of_ne m ρ c main_arg4 (by decide)]
  rw [e_v31, e_v3, e_v6, e_arg4]
  rfl

/-- The second layer's third operand: the aggregated features' weight row, transposed and converted. -/
theorem k_v84 : W7 m ρ c (Proc.devRef .tc main_v84) = truncf .bf16 (val_main_v79 (F := F) (m ((c.tc : Thread nD τ).loc main_arg5))) bitsLt_bf16_f32 := by
  dsimp only [W7, W6, W5, hostOps1, hostOps1_1, hostOps1_2]
  after_results_simp
  rw [W4_of_ne m ρ c main_arg5 (by decide)]
  rw [e_arg5]
  rfl

/-- The second layer's fourth operand: the hidden features' weight row, transposed and converted. -/
theorem k_v86 : W7 m ρ c (Proc.devRef .tc main_v86) = truncf .bf16 (val_main_v84 (F := F) (m ((c.tc : Thread nD τ).loc main_arg7))) bitsLt_bf16_f32 := by
  dsimp only [W7, W6, W5, hostOps1, hostOps1_1, hostOps1_2]
  after_results_simp
  rw [W4_of_ne m ρ c main_arg7 (by decide)]
  rw [e_arg7]
  rfl

/-- The output bias is not written before the second pipeline. -/
theorem k_arg6 : W7 m ρ c (Proc.devRef .tc main_arg6) = m ((c.tc : Thread nD τ).loc main_arg6) := by
  dsimp only [W7, W6, W5, hostOps1, hostOps1_1, hostOps1_2]
  after_results_simp
  rw [W4_of_ne m ρ c main_arg6 (by decide)]
  rw [e_arg6]

end Cert.KernelIdeal.Host

end
-- ==== Proof.KHostC.lean ====
/-
  The idealized kernel program's two result buffers after its last segment, as functions of the second
  pipeline's output array, the hidden features and the bias argument.
-/
import proofs.«135529_j46093589021048_1_alg».proof.Proof.Gen.KernelIdeal.Frame
import proofs.«135529_j46093589021048_1_alg».proof.Proof.Mid
import proofs.«135529_j46093589021048_1_alg».proof.Proof.KHostB
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-! ## After the second pipeline

The second pipeline replaces its output array (`main_v87`, the [10000, 1] result of the output layer) and
keeps every other buffer; the last stretch adds the broadcast bias to it and drops the unit axis. The
hidden features are written by no segment after the stretch that computes them. -/

/-- The output vector: the output layer's result plus the bias broadcast along the nodes, with the unit axis
    dropped. -/
theorem k_v91 : W9 m ρ c (Proc.devRef .tc main_v91)
    = shapeCast Cert.ReferenceIdeal.S10000
        (addf (W8 m ρ c (Proc.devRef .tc main_v87)) (val_main_v82 (F := F) (m ((c.tc : Thread nD τ).loc main_arg6))))
        Cert.ReferenceIdeal.Gen.shapeCasts_S10000x1_S10000 := by
  dsimp only [W9, hostOps2]
  after_results_simp
  rw [W8_of_ne m ρ c main_arg6 (by decide)]
  rw [k_arg6]
  rfl

/-- The hidden features after the whole run are those the second pipeline was entered with. -/
theorem k9_v52 : W9 m ρ c (Proc.devRef .tc main_v52) = W7 m ρ c (Proc.devRef .tc main_v52) := by
  have h : W9 m ρ c (Proc.devRef .tc main_v52) = W8 m ρ c (Proc.devRef .tc main_v52) := by
    dsimp only [W9, hostOps2]
    after_results_simp
  exact h.trans (W8_of_ne m ρ c main_v52 (by decide))

end Cert.KernelIdeal.Host

end
-- ==== Proof.Spec.lean ====
/-
  What the two programs compute on the extended reals, entry by entry, as far as their dense layers go.

  A graph-convolution network over 10000 nodes with 512 features: the first layer multiplies the node
  features by a weight matrix, the last one multiplies the aggregated and the hidden features by one weight
  column each and adds the two products. Everything between the two layers (degrees, normalisation,
  gathers and scatter-sums along the edges, the bias and the rectifier) is the same sequence of array
  operations in both programs and is never opened: it is carried as one function of the first layer's
  output.
-/
import Idealize.ShloMosaic.PureOps.Ideal
import Idealize.ShloMosaic.Lib.ValueIdx

noncomputable section

open scoped BigOperators

namespace Cert.Spec

open Idealize.ShloMosaic Idealize.ShloMosaic.ValueIdx

/-- The matrix product of `x : [N, K]` and `w : [K, M]`: entry (p, q) is the sum over k of x (p, k) · w (k, q).
    The operands' float formats play no role on the extended reals. -/
def mm {N K M : Nat} {φ₁ φ₂ : FTy} (x : FVec Ideal ⟨2, ![N, K]⟩ φ₁) (w : FVec Ideal ⟨2, ![K, M]⟩ φ₂) :
    FVec Ideal ⟨2, ![N, M]⟩ .f32 :=
  fun j => ∑ k : Fin K, (x (ix2 (j 0) k) * w (ix2 k (j 1)) : EReal)

theorem mm_apply {N K M : Nat} {φ₁ φ₂ : FTy} (x : FVec Ideal ⟨2, ![N, K]⟩ φ₁) (w : FVec Ideal ⟨2, ![K, M]⟩ φ₂)
    (p : Fin N) (q : Fin M) : mm x w (ix2 p q) = ∑ k : Fin K, (x (ix2 p k) * w (ix2 k q) : EReal) := rfl

/-- The output layer: the sum of two matrix products, `a · wo + h · wr`, entry by entry. -/
def lin2 {N K M : Nat} {φ₁ φ₂ φ₃ φ₄ : FTy} (a : FVec Ideal ⟨2, ![N, K]⟩ φ₁) (h : FVec Ideal ⟨2, ![N, K]⟩ φ₂)
    (wo : FVec Ideal ⟨2, ![K, M]⟩ φ₃) (wr : FVec Ideal ⟨2, ![K, M]⟩ φ₄) : FVec Ideal ⟨2, ![N, M]⟩ .f32 :=
  fun j => (mm a wo j + mm h wr j : EReal)

theorem lin2_apply {N K M : Nat} {φ₁ φ₂ φ₃ φ₄ : FTy} (a : FVec Ideal ⟨2, ![N, K]⟩ φ₁) (h : FVec Ideal ⟨2, ![N, K]⟩ φ₂)
    (wo : FVec Ideal ⟨2, ![K, M]⟩ φ₃) (wr : FVec Ideal ⟨2, ![K, M]⟩ φ₄) (p : Fin N) (q : Fin M) :
    lin2 a h wo wr (ix2 p q)
      = ((∑ k : Fin K, (a (ix2 p k) * wo (ix2 k q) : EReal)) + ∑ k : Fin K, (h (ix2 p k) * wr (ix2 k q) : EReal) : EReal) := rfl

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Region0.lean ====
/-
  The first dense layer, blockwise: the feature matrix times the weight matrix.

  The node features x are a [10000, 512] matrix, the weights w a [512, 512] matrix. The kernel visits five
  grid points; at point t it holds rows 2000·t … 2000·t + 1999 of x and all of w, multiplies them into a zero
  accumulator and writes the [2000, 512] product to rows 2000·t … 2000·t + 1999 of the result. On the extended
  reals the product into a zero accumulator is the plain sum over the contracted axis, so what point t writes
  is the restriction to its rows of ONE function of the whole arrays: entry (r, q) of x · w, the sum over k of
  x (r, k) · w (k, q). Row r lies in the block of point r / 2000, so the five row blocks cover the result, and
  after the five points the result array is the whole product x · w.

  The steps: an entry of the block product (`product_entry`); where each block's entries sit in its array
  (`block_indices`, `feature_block_entry`, `weight_block_entry`); an entry of the block product as an entry of
  the whole product (`block_product_entry`); what a point writes back (`written_back`); which rows a point's
  block holds and that every row is held by one (`mem_row_block`, `rows_covered`); the array (`array`).
-/
import proofs.«135529_j46093589021048_1_alg».proof.Proof.Gen.KernelIdeal.Frame
import proofs.«135529_j46093589021048_1_alg».proof.Proof.Spec
import proofs.«135529_j46093589021048_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Idealize.ShloMosaic Idealize.ShloMosaic.ValueIdx Idealize.ShloMosaic.TcCoe Idealize.SL.Sem
open Idealize.ShloMosaic.Pipeline (Dat)

/-! ## An entry of the block product -/

/-- Entry (p, q) of what the body computes from a [2000, 512] block x and a [512, 512] block w: the two shape
    casts keep the shape, so they are the identity, and the product into the zero accumulator is the sum over
    k of x (p, k) · w (k, q). -/
theorem product_entry (x : Vec Ideal S2000x512 .bf16) (w : Vec Ideal S512x512 .bf16) (p : Fin 2000) (q : Fin 512) :
    Gen.k0_pay1 (F := Ideal) x w (ix2 p q) = ∑ k : Fin 512, (x (ix2 p k) * w (ix2 k q) : EReal) := by
  unfold Gen.k0_pay1
  rw [shapeCast_self, shapeCast_self]
  exact Cert.LibPlainDot.matmul_zero_apply none x w p q

/-! ## Where the blocks sit in their arrays -/

/-- The body reads and writes its whole buffers: its rectangles start at offset 0 on both axes. -/
theorem zero_offsets : (![0, 0] : Fin 2 → Nat) = fun _ => 0 := funext fun a => by fin_cases a <;> rfl

/-- The block indices at grid point t: the features' and the result's blocks are row block t, column block 0;
    the weights' block is always block (0, 0). Five points, decided one by one. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the contents of the core's buffers when the region is entered
variable (V : (c : Dev nD) → (b : Ref sig .tc) → Buf (Elt Ideal) ((c : Thread nD τ).loc b))

/-- Entry (p, k) of the features' block at point t is entry (2000·t + p, k) of the feature matrix: a block's
    coordinate in the array is the block index times the block's extent plus the coordinate inside the block. -/
theorem feature_block_entry (c : Dev nD) (t : Fin cfg0.N) (p : Fin 2000) (k : Fin 512) (r : Fin 10000)
    (hr : r.val = 2000 * t.val + p.val) :
    (Gen.iblk0 V c 0 t : Vec Ideal S2000x512 .bf16) (ix2 p k)
      = (V c main_v32 : FVec Ideal ⟨2, ![10000, 512]⟩ .bf16) (ix2 r k) := by
  obtain ⟨e0, e1, -, -, -, -⟩ := block_indices t
  unfold Gen.iblk0
  rw [View.read_apply]
  show V c main_v32 (((cfg0.win 0).blk t).view.emb (ix2 p k)) = V c main_v32 (ix2 r k)
  refine congrArg (V c main_v32) (funext fun a => Fin.ext ?_)
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weights' block at every point is the whole weight matrix: entry (k, q) of the block is entry (k, q). -/
theorem weight_block_entry (c : Dev nD) (t : Fin cfg0.N) (k : Fin 512) (q : Fin 512) :
    (Gen.iblk0 V c 1 t : Vec Ideal S512x512 .bf16) (ix2 k q)
      = (V c main_v34 : FVec Ideal ⟨2, ![512, 512]⟩ .bf16) (ix2 k q) := by
  obtain ⟨-, -, e0, e1, -, -⟩ := block_indices t
  unfold Gen.iblk0
  rw [View.read_apply]
  show V c main_v34 (((cfg0.win 1).blk t).view.emb (ix2 k q)) = V c main_v34 (ix2 k q)
  refine congrArg (V c main_v34) (funext fun a => Fin.ext ?_)
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-! ## An entry of the block product is an entry of the whole product -/

/-- If row p of the block x is row r of the matrix A, and column q of the block w is column q of the matrix W,
    then entry (p, q) of the block product is entry (r, q) of A · W: the two sums over k agree term by term. -/
theorem block_product_entry (A : FVec Ideal ⟨2, ![10000, 512]⟩ .bf16) (W : FVec Ideal ⟨2, ![512, 512]⟩ .bf16)
    (x : Vec Ideal S2000x512 .bf16) (w : Vec Ideal S512x512 .bf16) (p : Fin 2000) (q : Fin 512) (r : Fin 10000)
    (hx : ∀ k : Fin 512, x (ix2 p k) = A (ix2 r k)) (hw : ∀ k : Fin 512, w (ix2 k q) = W (ix2 k q)) :
    Gen.k0_pay1 (F := Ideal) x w (ix2 p q) = Cert.Spec.mm A W (ix2 r q) := by
  rw [product_entry, Cert.Spec.mm_apply]
  exact Finset.sum_congr rfl fun k _ => by rw [hx k, hw k]

/-! ## What a point writes back -/

/-- What point t writes back to the result is block t of the whole product x · w: the body's one store fills
    its buffer with the product of the two blocks it loaded whole; entry (p, q) of the result's block t sits at
    (2000·t + p, q) of the result, row p of the features' block t is row 2000·t + p of x, and the weights' block
    is w. -/
theorem written_back (c : Dev nD) (t : Fin cfg0.N) :
    (Gen.dat0 (F := Ideal) V c).flushed 2 t
      = ((cfg0.win 2).blk t).view.read (Elt Ideal)
          (Cert.Spec.mm (φ₁ := .bf16) (φ₂ := .bf16) (V c main_v32) (V c main_v34)) := by
  show (cfg0.win 2).cut (grid0.coords t) ((Gen.dat0 V c).after 2 t) = _
  rw [Gen.after0_2]
  unfold Gen.out0_2
  rw [View.canon_unit_zero zero_offsets]
  simp only [View.ld_unit_zero (S := S2000x512) zero_offsets, View.ld_unit_zero (S := S512x512) zero_offsets]
  funext j
  obtain ⟨p, q, rfl⟩ : ∃ (p : Fin 2000) (q : Fin 512), j = ix2 p q := ⟨j 0, j 1, eq_ix2 j⟩
  have ht : t.val < 5 := t.isLt
  obtain ⟨-, -, -, -, e0, e1⟩ := block_indices t
  have e : ((cfg0.win 2).blk t).view.emb (ix2 p q) = ix2 (⟨2000 * t.val + p.val, by omega⟩ : Fin 10000) q :=
    funext fun a => Fin.ext (by
      match a with
      | ⟨0, _⟩ => show win0_2.index t (0 : Fin 2) * 2000 + 1 * p.val = 2000 * t.val + p.val; rw [e0]; omega
      | ⟨1, _⟩ => show win0_2.index t (1 : Fin 2) * 512 + 1 * q.val = q.val; rw [e1]; omega)
  rw [View.read_apply]
  show Gen.k0_pay1 (Gen.iblk0 V c 0 t) (Gen.iblk0 V c 1 t) (ix2 p q)
    = Cert.Spec.mm (φ₁ := .bf16) (φ₂ := .bf16) (V c main_v32) (V c main_v34) (((cfg0.win 2).blk t).view.emb (ix2 p q))
  rw [e]
  exact block_product_entry (V c main_v32) (V c main_v34) (Gen.iblk0 V c 0 t) (Gen.iblk0 V c 1 t) p q
    ⟨2000 * t.val + p.val, by omega⟩ (fun k => feature_block_entry V c t p k _ rfl) (fun k => weight_block_entry V c t k q)

/-! ## The row blocks cover the result -/

/-- Entry i of the result is in point t's block iff each coordinate lies in the block's range on its axis. -/
theorem mem_row_block (t : Fin cfg0.N) (i : S10000x512.Idx) :
    i ∈ ((cfg0.win 2).blk t).view.set
      ↔ ∀ a : Fin 2, win0_2.index t a * S2000x512.size a ≤ (i a).val
          ∧ (i a).val < win0_2.index t a * S2000x512.size a + S2000x512.size a := by
  show i ∈ ((View.whole main_v35).slice (win0_2.rect t)).set ↔ _
  rw [View.set_slice_whole, Rect.mem_set_unit]
  exact Iff.rfl

/-- Every entry (r, q) of the result is written back by some point: by point r / 2000, since
    2000 · (r / 2000) ≤ r < 2000 · (r / 2000) + 2000, and r < 10000 puts r / 2000 among the five points. -/
theorem rows_covered (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := rfl
  refine ⟨⟨(i 0).val / 2000, by rw [hN]; omega⟩, Gen.flush0_2 _, ?_⟩
  rw [mem_row_block]
  obtain ⟨-, -, -, -, e0, e1⟩ := block_indices ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e0]
    show (i 0).val / 2000 * 2000 ≤ (i 0).val ∧ (i 0).val < (i 0).val / 2000 * 2000 + 2000
    omega
  | ⟨1, _⟩ =>
    show win0_2.index _ (1 : Fin 2) * 512 ≤ (i 1).val ∧ (i 1).val < win0_2.index _ (1 : Fin 2) * 512 + 512
    rw [e1]
    omega

/-! ## The array -/

/-- After the five points the result array is the whole matrix product of the feature matrix and the weight
    matrix as the region found them: every point writes its block of that product, and the blocks cover the
    array. -/
theorem array (c : Dev nD) :
    (Cert.KernelIdeal.Gen.dat0 (F := Ideal) V c).arrAt 2 cfg0.N
      = Cert.Spec.mm (φ₁ := .bf16) (φ₂ := .bf16) (V c main_v32) (V c main_v34) :=
  (Gen.dat0 (F := Ideal) V c).arrAt_eq_of_cover 2
    (Cert.Spec.mm (φ₁ := .bf16) (φ₂ := .bf16) (V c main_v32) (V c main_v34))
    (fun t _ => written_back V c t) rows_covered

end Cert.KernelIdeal.Region0

end
-- ==== Proof.Region1.lean ====
/-
  The output layer's region, read as one array.

  The region runs over 5 grid points. At point t it stages rows 2000 t … 2000 t + 1999 of the aggregated features
  and of the hidden features (both [10000, 512]) together with the two weight columns ([512, 1], whole at every
  point), and it writes back rows 2000 t … 2000 t + 1999 of the [10000, 1] result. Its body multiplies each staged
  block of features by its weight column, into a zero accumulator, and adds the two products. On the extended reals
  entry (p, 0) of what point t stores is therefore

      ∑ k, agg (2000 t + p, k) · wout (k, 0)  +  ∑ k, h (2000 t + p, k) · wroot (k, 0),

  which depends on the point only through the row r = 2000 t + p of the array. So every point writes back its own
  block of one and the same function of the four arrays, `Cert.Spec.lin2`; the five blocks tile the 10000 rows (row r lies in the
  block of point r / 2000); hence after the last point the result array is that function.
-/
import proofs.«135529_j46093589021048_1_alg».proof.Proof.Gen.KernelIdeal.Frame
import proofs.«135529_j46093589021048_1_alg».proof.Proof.Spec
import proofs.«135529_j46093589021048_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Idealize.ShloMosaic Idealize.ShloMosaic.ValueIdx Idealize.ShloMosaic.TcCoe Idealize.SL.Sem
open Idealize.ShloMosaic.Pipeline (Dat)

/-! ## The body's arithmetic at one entry -/

/-- Entry (p, q) of what the body stores, from the four blocks it loads: the two shape casts keep the shape and are the
    identity, each product into the zero accumulator is the plain sum over the 512 contracted coordinates, and the final
    addition is entrywise. The body pairs the first feature block with the first weight column and the second with the
    second. -/
theorem payload_apply (a h : FVec Ideal S2000x512 .bf16) (wo wr : FVec Ideal S512x1 .bf16) (p : Fin 2000) (q : Fin 1) :
    Gen.k1_pay1 (F := Ideal) a wo h wr (ix2 p q)
      = ((∑ k : Fin 512, (a (ix2 p k) * wo (ix2 k q) : EReal)) + ∑ k : Fin 512, (h (ix2 p k) * wr (ix2 k q) : EReal) : EReal) := by
  unfold Gen.k1_pay1
  rw [shapeCast_self, shapeCast_self, shapeCast_self, shapeCast_self, addf_apply]
  exact congrArg₂ (fun x y : EReal => x + y)
    (Cert.LibPlainDot.matmul_zero_apply (M := 2000) (K := 512) (N := 1) none a wo p q)
    (Cert.LibPlainDot.matmul_zero_apply (M := 2000) (K := 512) (N := 1) none h wr p q)

/-- If row p of the two feature blocks is row r of the feature arrays `A`, `H`, and the staged weight columns are the
    weight arrays `Wo`, `Wr`, then entry (p, q) of what the body stores is entry (r, q) of `A · Wo + H · Wr`: the two
    sums agree term by term. -/
theorem point_value (A H : FVec Ideal S10000x512 .bf16) (Wo Wr : FVec Ideal S512x1 .bf16)
    (a h : FVec Ideal S2000x512 .bf16) (wo wr : FVec Ideal S512x1 .bf16) (p : Fin 2000) (q : Fin 1) (r : Fin 10000)
    (ha : ∀ k, a (ix2 p k) = A (ix2 r k)) (hh : ∀ k, h (ix2 p k) = H (ix2 r k))
    (hwo : ∀ k, wo (ix2 k q) = Wo (ix2 k q)) (hwr : ∀ k, wr (ix2 k q) = Wr (ix2 k q)) :
    Gen.k1_pay1 (F := Ideal) a wo h wr (ix2 p q) = Cert.Spec.lin2 A H Wo Wr (ix2 r q) := by
  rw [payload_apply, Cert.Spec.lin2_apply]
  simp only [ha, hh, hwo, hwr]

/-! ## Where each window's block sits in its array -/

/-- The body loads and stores whole staging buffers: offsets (0, 0). -/
theorem zeros : (![0, 0] : Fin 2 → Nat) = fun _ => 0 := funext fun a => by fin_cases a <;> rfl

/-- The grid has 5 points. -/
theorem grid_points : cfg1.N = 5 := by decide +kernel

/-- The block indices at point t, decided over the grid: the two feature windows and the result window are at block
    (t, 0) — they move down the rows together —, and the two weight windows stay at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
-- the buffers' contents when the region is entered
variable (V : (c : Dev nD) → (b : Ref sig .tc) → Buf (Elt Ideal) ((c : Thread nD τ).loc b))

/-- Row p of the aggregated features' block at point t is row 2000 t + p of their array: an element of a block sits, on
    each axis, at block index × block size + its coordinate inside the block. -/
theorem agg_block (c : Dev nD) (t : Fin cfg1.N) (p : Fin 2000) (k : Fin 512) (r : Fin 10000) (hr : r.val = t.val * 2000 + p.val) :
    (Gen.iblk1 (F := Ideal) V c 0 t : FVec Ideal S2000x512 .bf16) (ix2 p k) = (V c main_v81 : FVec Ideal S10000x512 .bf16) (ix2 r k) := by
  obtain ⟨e0, e1, -⟩ := block_index t
  show (V c main_v81 : FVec Ideal S10000x512 .bf16) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 512 + 1 * k.val = k.val; omega

/-- The same for the hidden features. -/
theorem hid_block (c : Dev nD) (t : Fin cfg1.N) (p : Fin 2000) (k : Fin 512) (r : Fin 10000) (hr : r.val = t.val * 2000 + p.val) :
    (Gen.iblk1 (F := Ideal) V c 1 t : FVec Ideal S2000x512 .bf16) (ix2 p k) = (V c main_v82 : FVec Ideal S10000x512 .bf16) (ix2 r k) := by
  obtain ⟨-, -, e0, e1, -⟩ := block_index t
  show (V c main_v82 : FVec Ideal S10000x512 .bf16) (((cfg1.win 1).blk t).view.emb (ix2 p k)) = _
  refine congrArg _ (funext fun a => Fin.ext ?_)
  match a with
  | ⟨0, _⟩ => show win1_1.index t (0 : Fin 2) * 2000 + 1 * p.val = r.val; omega
  | ⟨1, _⟩ => show win1_1.index t (1 : Fin 2) * 512 + 1 * k.val = k.val; omega

/-- The first weight column's block is the whole column at every point. -/
theorem wout_block (c : Dev nD) (t : Fin cfg1.N) (k : Fin 512) (q : Fin 1) :
    (Gen.iblk1 (F := Ideal) V c 2 t : FVec Ideal S512x1 .bf16) (ix2 k q) = (V c main_v84 : FVec Ideal S512x1 .bf16) (ix2 k q) := by
  obtain ⟨-, -, -, -, e0, e1, -⟩ := block_index t
  show (V c main_v84 : FVec Ideal S512x1 .bf16) (((cfg1.win 2).blk t).view.emb (ix2 k q)) = _
  refine congrArg _ (funext fun a => Fin.ext ?_)
  match a with
  | ⟨0, _⟩ => show win1_2.index t (0 : Fin 2) * 512 + 1 * k.val = k.val; omega
  | ⟨1, _⟩ => show win1_2.index t (1 : Fin 2) * 1 + 1 * q.val = q.val; omega

/-- And so is the second weight column's. -/
theorem wroot_block (c : Dev nD) (t : Fin cfg1.N) (k : Fin 512) (q : Fin 1) :
    (Gen.iblk1 (F := Ideal) V c 3 t : FVec Ideal S512x1 .bf16) (ix2 k q) = (V c main_v86 : FVec Ideal S512x1 .bf16) (ix2 k q) := by
  obtain ⟨-, -, -, -, -, -, e0, e1, -⟩ := block_index t
  show (V c main_v86 : FVec Ideal S512x1 .bf16) (((cfg1.win 3).blk t).view.emb (ix2 k q)) = _
  refine congrArg _ (funext fun a => Fin.ext ?_)
  match a with
  | ⟨0, _⟩ => show win1_3.index t (0 : Fin 2) * 512 + 1 * k.val = k.val; omega
  | ⟨1, _⟩ => show win1_3.index t (1 : Fin 2) * 1 + 1 * q.val = q.val; omega

/-- Entry (p, q) of the result's block at point t is entry (2000 t + p, q) of the result array. -/
theorem out_row (t : Fin cfg1.N) (p : Fin 2000) (q : Fin 1) (r : Fin 10000) (hr : r.val = t.val * 2000 + p.val) :
    ((cfg1.win 4).blk t).view.emb (ix2 p q) = (ix2 r q : S10000x1.Idx) := by
  obtain ⟨-, -, -, -, -, -, -, -, e0, e1⟩ := block_index t
  refine funext fun a => Fin.ext ?_
  match a with
  | ⟨0, _⟩ => show win1_4.index t (0 : Fin 2) * 2000 + 1 * p.val = r.val; omega
  | ⟨1, _⟩ => show win1_4.index t (1 : Fin 2) * 1 + 1 * q.val = q.val; omega

/-! ## What a point writes back, and the array after the last point -/

/-- What point t writes back is block t of `agg · wout + h · wroot`, for the four arrays as the region finds them. The
    result's staging buffer after the body holds the one whole-buffer store's payload of the whole-buffer loads of the
    four input blocks; at entry (p, q) that is entry (2000 t + p, q) of the function (`point_value`), each input block
    read where the result's row says. -/
theorem written_back (c : Dev nD) (t : Fin cfg1.N) :
    (Gen.dat1 (F := Ideal) V c).flushed 4 t
      = ((cfg1.win 4).blk t).view.read (Elt Ideal)
          (Cert.Spec.lin2 (φ₁ := .bf16) (φ₂ := .bf16) (φ₃ := .bf16) (φ₄ := .bf16)
            (V c main_v81) (V c main_v82) (V c main_v84) (V c main_v86)) := by
  show (cfg1.win 4).cut (grid1.coords t) ((Gen.dat1 (F := Ideal) V c).after 4 t) = _
  rw [Gen.after1_4]
  unfold Gen.out1_4
  rw [View.canon_unit_zero zeros]
  simp only [View.ld_unit_zero (S := S2000x512) zeros, View.ld_unit_zero (S := S512x1) zeros]
  funext j
  obtain ⟨p, q, rfl⟩ : ∃ (p : Fin 2000) (q : Fin 1), j = ix2 p q := ⟨j 0, j 1, eq_ix2 j⟩
  have ht : t.val < 5 := grid_points ▸ t.isLt
  have hr : t.val * 2000 + p.val < 10000 := by have := p.isLt; omega
  show Gen.k1_pay1 (F := Ideal) _ _ _ _ ((cfg1.win 4).xinj (grid1.coords t) (ix2 p q))
    = Cert.Spec.lin2 _ _ _ _ (((cfg1.win 4).blk t).view.emb (ix2 p q))
  rw [out_row t p q ⟨_, hr⟩ rfl,
    show (cfg1.win 4).xinj (grid1.coords t) (ix2 p q) = ix2 p q from funext fun a => Fin.ext rfl]
  exact point_value (V c main_v81) (V c main_v82) (V c main_v84) (V c main_v86)
    (Gen.iblk1 V c 0 t) (Gen.iblk1 V c 1 t) (Gen.iblk1 V c 2 t) (Gen.iblk1 V c 3 t) p q ⟨_, hr⟩
    (fun k => agg_block V c t p k _ rfl) (fun k => hid_block V c t p k _ rfl)
    (fun k => wout_block V c t k q) (fun k => wroot_block V c t k q)

/-- An entry of the result array is in point t's block iff each coordinate is in the block's range on its axis. -/
theorem mem_block (t : Fin cfg1.N) (i : S10000x1.Idx) :
    i ∈ ((cfg1.win 4).blk t).view.set ↔ ∀ a : Fin 2, win1_4.index t a * S2000x1.size a ≤ (i a).val ∧ (i a).val < win1_4.index t a * S2000x1.size a + S2000x1.size a := by
  show i ∈ ((View.whole main_v87).slice (win1_4.rect t)).set ↔ _
  rw [View.set_slice_whole, Rect.mem_set_unit]
  exact Iff.rfl

/-- The blocks tile the array: row r < 10000 lies in the block of point r / 2000 < 5 (2000 (r / 2000) ≤ r <
    2000 (r / 2000) + 2000), and every point writes its block back. -/
theorem covered (i : S10000x1.Idx) :
    ∃ t : Fin cfg1.N, (cfg1.win 4).flush t = true ∧ i ∈ ((cfg1.win 4).blk t).view.set := by
  have hi0 : (i 0).val < 10000 := (i 0).isLt
  have hi1 : (i 1).val < 1 := (i 1).isLt
  have ht : (i 0).val / 2000 < cfg1.N := by rw [grid_points]; omega
  obtain ⟨-, -, -, -, -, -, -, -, e0, e1⟩ := block_index ⟨(i 0).val / 2000, ht⟩
  have e0' : win1_4.index ⟨(i 0).val / 2000, ht⟩ (0 : Fin 2) = (i 0).val / 2000 := e0
  refine ⟨⟨(i 0).val / 2000, ht⟩, Gen.flush1_4 _, ?_⟩
  rw [mem_block]
  intro a
  match a with
  | ⟨0, _⟩ => show win1_4.index ⟨(i 0).val / 2000, ht⟩ (0 : Fin 2) * 2000 ≤ (i 0).val ∧ (i 0).val < win1_4.index ⟨(i 0).val / 2000, ht⟩ (0 : Fin 2) * 2000 + 2000; omega
  | ⟨1, _⟩ => show win1_4.index ⟨(i 0).val / 2000, ht⟩ (1 : Fin 2) * 1 ≤ (i 1).val ∧ (i 1).val < win1_4.index ⟨(i 0).val / 2000, ht⟩ (1 : Fin 2) * 1 + 1; omega

/-- The result array after all 5 points is `agg · wout + h · wroot`, entry by entry, for the arrays of the aggregated
    features, the hidden features and the two weight columns as the region finds them: every point writes back its
    block of that function and the blocks cover the array. -/
theorem array (c : Dev nD) :
    (Cert.KernelIdeal.Gen.dat1 (F := Ideal) V c).arrAt 4 cfg1.N
      = Cert.Spec.lin2 (φ₁ := .bf16) (φ₂ := .bf16) (φ₃ := .bf16) (φ₄ := .bf16)
          (V c main_v81) (V c main_v82) (V c main_v84) (V c main_v86) :=
  (Gen.dat1 (F := Ideal) V c).arrAt_eq_of_cover 4 _ (fun t _ => written_back V c t) covered

end

end Cert.KernelIdeal.Region1

end
-- ==== Proof.Bridge.lean ====
/-
  The reference program's two dense layers, read on the extended reals as the specification's products.

  The reference computes the first layer as the host product of the node features x [10000, 512] with the
  transposed weights, and its output as (a · wo + b) + h · wr, reshaped from [10000, 1] to [10000]: a the
  aggregated features, h the hidden features, wo and wr two weight columns [512, 1], b the bias broadcast
  along the rows. The kernel program rounds every operand of a product to bf16 first; on the extended reals a
  rounding is the identity, so the specification's products of the rounded operands are the host products of
  the operands themselves. A host product at entry (p, q) is the sum over k of lhs (p, k) · rhs (k, q), which
  is the specification's product entry by entry; and (s₁ + b) + s₂ = (s₁ + s₂) + b in the extended reals,
  where addition is commutative and associative on all of them, so nothing needs to be finite.

  The aggregated and the hidden features are never opened: both sides carry them as the same two arrays.
-/
import proofs.«135529_j46093589021048_1_alg».proof.Proof.Gen.ReferenceIdeal.Read
import proofs.«135529_j46093589021048_1_alg».proof.Proof.Spec
import proofs.«135529_j46093589021048_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Bridge

open Cert.ReferenceIdeal Cert.ReferenceIdeal.Read Idealize.ShloMosaic Idealize.ShloMosaic.ValueIdx
open Cert.ReferenceIdeal.Facts₀ (shapeCasts_S10000x1_S10000)

/-- bf16 has fewer bits than f32: what a rounding from f32 to bf16 asks of its two formats. -/
theorem bf16_lt_f32 : FTy.bits .bf16 < FTy.bits .f32 := by decide

/-! ## The host products at an entry -/

/-- Entry (p, q) of the host product [10000, 512] · [512, 512]: the sum over k of A (p, k) · W (k, q). -/
theorem host_product_entry (A : FVec Ideal ⟨2, ![10000, 512]⟩ .f32) (W : FVec Ideal ⟨2, ![512, 512]⟩ .f32)
    (p : Fin 10000) (q : Fin 512) :
    Host.dotGeneral dot_S10000x512_S512x512_S10000x512_1_0_0_1_n_n none A W (ix2 p q)
      = ∑ k : Fin 512, (A (ix2 p k) * W (ix2 k q) : EReal) := by
  show FloatOps.dotGeneral (DotDims.plain 10000 512 512) none _ A W (ix2 p q) = _
  exact Cert.LibPlainDot.dotGeneral_apply none _ A W p q

/-- Entry (p, q) of the host product [10000, 512] · [512, 1] (q is 0): the sum over k of A (p, k) · w (k, q). -/
theorem host_column_entry (A : FVec Ideal ⟨2, ![10000, 512]⟩ .f32) (w : FVec Ideal ⟨2, ![512, 1]⟩ .f32)
    (p : Fin 10000) (q : Fin 1) :
    Host.dotGeneral dot_S10000x512_S512x1_S10000x1_1_0_0_1_n_n none A w (ix2 p q)
      = ∑ k : Fin 512, (A (ix2 p k) * w (ix2 k q) : EReal) := by
  show FloatOps.dotGeneral (DotDims.plain 10000 512 1) none _ A w (ix2 p q) = _
  exact Cert.LibPlainDot.dotGeneral_apply none _ A w p q

/-! ## The output vector -/

/-- The output vector from the output layer's [10000, 1] result: add the broadcast bias, drop the unit axis. -/
def outOf (y : (⟨S10000x1, .f32⟩ : BufTy).Contents (Elt Ideal)) (x6 : (⟨S1, .f32⟩ : BufTy).Contents (Elt Ideal)) :
    (⟨S10000, .f32⟩ : BufTy).Contents (Elt Ideal) :=
  shapeCast S10000 (addf (F := Ideal) (φ := .f32) y (val_main_v82 (F := Ideal) x6)) shapeCasts_S10000x1_S10000

/-! ## The first layer -/

/-- The specification's product of the rounded features and the rounded transposed weights is the reference's
    first host product: entry by entry both are the sum over k of x (p, k) · wᵀ (k, q), a rounding being the
    identity on the extended reals. -/
theorem first_layer
    (x0 : (⟨S10000x512, .f32⟩ : BufTy).Contents (Elt Ideal)) (x3 : (⟨S512x512, .f32⟩ : BufTy).Contents (Elt Ideal)) :
    Cert.Spec.mm (φ₁ := .bf16) (φ₂ := .bf16) (truncf (F := Ideal) (φ := .f32) .bf16 x0 bf16_lt_f32)
        (truncf (F := Ideal) (φ := .f32) .bf16 (val_main_v32 (F := Ideal) x3) bf16_lt_f32)
      = val_main_v33 (F := Ideal) x0 x3 := by
  unfold val_main_v33
  generalize val_main_v32 (F := Ideal) x3 = W
  funext j
  obtain ⟨p, q, rfl⟩ : ∃ (p : Fin 10000) (q : Fin 512), j = ix2 p q := ⟨j 0, j 1, eq_ix2 j⟩
  rw [Cert.Spec.mm_apply, host_product_entry]
  rfl

/-! ## The output layer -/

/-- The reference's output is the output vector of the specification's two-product layer on the rounded
    operands. Both sides drop the unit axis of a [10000, 1] array, so it is enough that the two arrays agree;
    at entry (p, q), with s₁ = ∑ k, a (p, k) · wo (k, q), s₂ = ∑ k, h (p, k) · wr (k, q) and b the bias, the
    reference has (s₁ + b) + s₂ and the specification (s₁ + s₂) + b. The aggregated features a and the hidden
    features h enter only as two arrays. -/
theorem ref_out
    (x0 : (⟨S10000x512, .f32⟩ : BufTy).Contents (Elt Ideal)) (x1 : (⟨S2x160000, .i32⟩ : BufTy).Contents (Elt Ideal))
    (x2 : (⟨S160000, .f32⟩ : BufTy).Contents (Elt Ideal)) (x3 : (⟨S512x512, .f32⟩ : BufTy).Contents (Elt Ideal))
    (x4 : (⟨S512, .f32⟩ : BufTy).Contents (Elt Ideal)) (x5 : (⟨S1x512, .f32⟩ : BufTy).Contents (Elt Ideal))
    (x6 : (⟨S1, .f32⟩ : BufTy).Contents (Elt Ideal)) (x7 : (⟨S1x512, .f32⟩ : BufTy).Contents (Elt Ideal)) :
    val_main_v87 (F := Ideal) x0 x1 x2 x3 x4 x5 x6 x7
      = outOf (Cert.Spec.lin2 (φ₁ := .bf16) (φ₂ := .bf16) (φ₃ := .bf16) (φ₄ := .bf16)
          (truncf (F := Ideal) (φ := .f32) .bf16 (val_main_v78 (F := Ideal) x0 x1 x2 x3 x4) bf16_lt_f32)
          (truncf (F := Ideal) (φ := .f32) .bf16 (val_main_v50 (F := Ideal) x0 x1 x2 x3 x4) bf16_lt_f32)
          (truncf (F := Ideal) (φ := .f32) .bf16 (val_main_v79 (F := Ideal) x5) bf16_lt_f32)
          (truncf (F := Ideal) (φ := .f32) .bf16 (val_main_v84 (F := Ideal) x7) bf16_lt_f32)) x6 := by
  unfold val_main_v87 outOf val_main_v86 val_main_v83 val_main_v80 val_main_v85
  generalize val_main_v78 (F := Ideal) x0 x1 x2 x3 x4 = A
  generalize val_main_v50 (F := Ideal) x0 x1 x2 x3 x4 = H
  generalize val_main_v79 (F := Ideal) x5 = wo
  generalize val_main_v84 (F := Ideal) x7 = wr
  generalize val_main_v82 (F := Ideal) x6 = b
  refine congrArg (fun y => shapeCast S10000 y shapeCasts_S10000x1_S10000) ?_
  funext j
  obtain ⟨p, q, rfl⟩ : ∃ (p : Fin 10000) (q : Fin 1), j = ix2 p q := ⟨j 0, j 1, eq_ix2 j⟩
  show (Host.dotGeneral (F := Ideal) dot_S10000x512_S512x1_S10000x1_1_0_0_1_n_n none A wo (ix2 p q) + b (ix2 p q) : EReal)
      + Host.dotGeneral (F := Ideal) dot_S10000x512_S512x1_S10000x1_1_0_0_1_n_n none H wr (ix2 p q)
    = Cert.Spec.lin2 (φ₁ := .bf16) (φ₂ := .bf16) (φ₃ := .bf16) (φ₄ := .bf16)
        (truncf (F := Ideal) (φ := .f32) .bf16 A bf16_lt_f32) (truncf (F := Ideal) (φ := .f32) .bf16 H bf16_lt_f32)
        (truncf (F := Ideal) (φ := .f32) .bf16 wo bf16_lt_f32) (truncf (F := Ideal) (φ := .f32) .bf16 wr bf16_lt_f32) (ix2 p q)
      + b (ix2 p q)
  rw [host_column_entry, host_column_entry, Cert.Spec.lin2_apply]
  exact add_right_comm _ _ _

end Cert.Bridge

end
-- ==== Proof.KOut.lean ====
/-
  The idealized kernel program's two results are the reference's two results as functions of the launch
  arguments.

  The first pipeline leaves in its output array the product of the converted node features and the
  converted transposed weight, which on the extended reals is the reference's first matrix product. The
  stretches between the pipelines apply to it the same functions the reference applies, so the hidden
  features are the reference's. The second pipeline leaves the sum of the two products of the output layer;
  with the bias added after it this is the reference's output, where the bias is added between the two
  products: addition of extended reals is commutative and associative.
-/
import proofs.«135529_j46093589021048_1_alg».proof.Proof.KHostC
import proofs.«135529_j46093589021048_1_alg».proof.Proof.Region0
import proofs.«135529_j46093589021048_1_alg».proof.Proof.Region1
import proofs.«135529_j46093589021048_1_alg».proof.Proof.Bridge

set_option maxRecDepth 16384

noncomputable section

namespace Cert.KernelIdeal.Out

open Cert.KernelIdeal Cert.KernelIdeal.Gen Cert.KernelIdeal.Host
open Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- The first layer's output array after the first pipeline is the reference's first matrix product. -/
theorem first_layer : W4 m ρ c (Proc.devRef .tc main_v35) = val_main_v33 (F := Ideal) (m ((c.tc : Thread nD τ).loc main_arg0)) (m ((c.tc : Thread nD τ).loc main_arg3)) := by
  have h : W4 m ρ c (Proc.devRef .tc main_v35) = (dat0 (F := Ideal) (V3 m ρ) c).arrAt 2 cfg0.N := W4_arr m ρ c 2
  rw [h, Cert.KernelIdeal.Region0.array (V3 m ρ) c]
  dsimp only [V3]
  rw [e_v32, e_v34]
  exact Cert.Bridge.first_layer _ _

/-- The hidden features at the end of the run are the reference's. -/
theorem hidden : W9 m ρ c (Proc.devRef .tc main_v52)
    = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [k9_v52, k_v52, first_layer]
  exact (Cert.Mid.ref_feat _ _ _ _ _).symm

/-- The output vector at the end of the run is the reference's. -/
theorem output : W9 m ρ c (Proc.devRef .tc main_v91)
    = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h : W8 m ρ c (Proc.devRef .tc main_v87) = (dat1 (F := Ideal) (V7 m ρ) c).arrAt 4 cfg1.N := W8_arr m ρ c 4
  rw [k_v91, h, Cert.KernelIdeal.Region1.array (V7 m ρ) c]
  dsimp only [V7]
  rw [k_v81, k_v82, k_v84, k_v86, first_layer, ← Cert.Mid.ref_feat, ← Cert.Mid.ref_agg]
  exact (Cert.Bridge.ref_out _ _ _ _ _ _ _ _).symm

end Cert.KernelIdeal.Out

end
-- ==== Proof.lean ====
/-
  A two-layer graph-convolution network over 10000 nodes and 170000 edges (160000 given ones and one self
  loop per node), with 512 input and 512 hidden features and one output per node: the kernel program
  equals its reference on the extended reals.

  Both programs compute, from the node features x, the edge list and weights, and the layers' weights and
  biases,
      h0  = x · W1ᵀ                                   the first dense layer,
      h   = relu (Σ_{e : col e = i} norm e · h0 (row e, ·) + b1)     the hidden features (a result),
      agg = Σ_{e : col e = i} dinv i · h (row e, ·)                  the aggregated features,
      out = agg · Woutᵀ + h · Wrootᵀ + b2                            the output (a result).
  The kernel program computes the two dense layers in pipelines over five blocks of 2000 rows — the first
  as a product of operands converted to a narrower float format, the second as the sum of two such
  products, the bias added afterwards —, the reference as whole matrix products with the bias added
  between the two. On the extended reals a change of float format is the identity, a block of rows of a
  product is the product of the block of rows, the five blocks cover the array, and addition is commutative
  and associative; everything else (the edge list, the normalisation, the gathers and scatter-sums, the
  rectifier) is the same sequence of array operations in both programs, applied to equal arrays. No
  finiteness of the inputs is used.

  The modules: `Spec` (a matrix product and the sum of two, entry by entry), `LibPlainDot` (the two
  programs' product operations read at an entry), `Region0` and `Region1` (what each pipeline leaves in its
  output array), `Mid` (the operations between and after the layers as functions of the layers' outputs),
  `KRun` (the kernel program's run with its results named), `KHostA`, `KHostB`, `KHostC` (the kernel
  program's buffers before, between and after the pipelines), `Bridge` (the reference's two layers against
  the specification), `KOut` (the kernel program's results are the reference's stages of the arguments).
  The three frame claims are the generated frames of the two kernel programs and the reference's generated
  run; the idealization rewrote nothing, so its claim is trivial.
-/
import proofs.«135529_j46093589021048_1_alg».proof.Defs
import proofs.«135529_j46093589021048_1_alg».proof.Proof.Gen.Kernel
import proofs.«135529_j46093589021048_1_alg».proof.Proof.Gen.Kernel.Frame
import proofs.«135529_j46093589021048_1_alg».proof.Proof.Gen.KernelIdeal
import proofs.«135529_j46093589021048_1_alg».proof.Proof.Gen.KernelIdeal.Frame
import proofs.«135529_j46093589021048_1_alg».proof.Proof.Gen.ReferenceIdeal
import proofs.«135529_j46093589021048_1_alg».proof.Proof.Gen.ReferenceIdeal.Run
import proofs.«135529_j46093589021048_1_alg».proof.Proof.Gen.ReferenceIdeal.Read
import proofs.«135529_j46093589021048_1_alg».proof.Proof.Gen.Pre_finite_inputs
import proofs.«135529_j46093589021048_1_alg».proof.Proof.KRun
import proofs.«135529_j46093589021048_1_alg».proof.Proof.KOut
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both idealized programs end with the output vector and the hidden
    features at the reference's stages of the arguments: the kernel program by `KOut`, the reference by its run. -/
theorem algebraic : Cert.algebraic_KernelIdeal_ReferenceIdeal := by
  intro m ρ m' ρ' _ hagree
  refine ⟨fun c => Cert.ReferenceIdeal.Read.val_main_v87 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    fun c => Cert.ReferenceIdeal.Read.val_main_v50 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
    ?_, ?_⟩
  · exact (θ_run Cert.KernelIdeal.defs _ _).mono
      (fun r h c => ⟨(h c).1.trans (Cert.KernelIdeal.Out.output m ρ c), (h c).2.1.trans (Cert.KernelIdeal.Out.hidden m ρ c), (h c).2.2⟩)
      (Cert.KernelIdeal.Run.results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v87_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
    · rw [Cert.ReferenceIdeal.Read.val_main_v50_eq, (hagree c).1, (hagree c).2.1, (hagree c).2.2.1, (hagree c).2.2.2.1,
        (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
